-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel

variable [Facts]

def fn {F : FTy → Type} [FloatOps F] (main_arg0 : FVec F S100000x32 .f32) (main_arg1 : IVec S1600000 32) (main_arg2 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  main_v3
-- ==== Kernel.lean ====
abbrev S100000x32 : Shape := ⟨2, ![100000, 32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x32 : Shape := ⟨2, ![5000, 32]⟩
abbrev S5000x1 : Shape := ⟨2, ![5000, 1]⟩
abbrev S1600000x32 : Shape := ⟨2, ![1600000, 32]⟩

abbrev nBuf : Space → Nat
  | .hbm => 26
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S_, .f32⟩
  | .hbm, ⟨4, _⟩ => ⟨S1600000, .f32⟩
  | .hbm, ⟨5, _⟩ => ⟨S_, .f32⟩
  | .hbm, ⟨6, _⟩ => ⟨S100000, .f32⟩
  | .hbm, ⟨7, _⟩ => ⟨S1600000x1, .i32⟩
  | .hbm, ⟨8, _⟩ => ⟨S100000, .f32⟩
  | .hbm, ⟨9, _⟩ => ⟨S100000x1, .f32⟩
  | .hbm, ⟨10, _⟩ => ⟨S100000x32, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x32, .f32⟩
  | .hbm, ⟨20, _⟩ => ⟨S_, .f32⟩
  | .hbm, ⟨21, _⟩ => ⟨S100000x32, .f32⟩
  | .hbm, ⟨22, _⟩ => ⟨S1600000x1, .i32⟩
  | .hbm, ⟨23, _⟩ => ⟨S100000x32, .f32⟩
  | .hbm, ⟨24, _⟩ => ⟨S100000x1, .f32⟩
  | .hbm, ⟨25, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x32, .f32⟩
  | .local _ .vmem, ⟨5, _⟩ => ⟨S5000x32, .f32⟩
  | .local _ .vmem, ⟨6, _⟩ => ⟨S5000x1, .f32⟩
  | .local _ .vmem, ⟨7, _⟩ => ⟨S5000x1, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x32_S5000x32_0_0 : ∀ a, (![0, 0] : Fin 2 → Nat) a + S5000x32.size a ≤ S5000x32.size a
  h_S5000x32 : 0 < S5000x32.numel
  broadcasts_S5000x1_S5000x32 : S5000x1.Broadcasts S5000x32
  bcast_S_S100000x32 : S_.BroadcastsInDim S100000x32 (![] : Fin 0 → Fin S100000x32.rank)
  shapeCasts_S5000x32_S5000x32 : S5000x32.ShapeCasts S5000x32
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .f32 = 32 ∨ (Rect.block (s := S100000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩

abbrev nBuf : Space → Nat
  | .hbm => 32
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S_, .f32⟩
  | .hbm, ⟨4, _⟩ => ⟨S1600000, .f32⟩
  | .hbm, ⟨5, _⟩ => ⟨S_, .f32⟩
  | .hbm, ⟨6, _⟩ => ⟨S100000, .f32⟩
  | .hbm, ⟨7, _⟩ => ⟨S1600000x1, .i32⟩
  | .hbm, ⟨8, _⟩ => ⟨S100000, .f32⟩
  | .hbm, ⟨9, _⟩ => ⟨S_, .f32⟩
  | .hbm, ⟨10, _⟩ => ⟨S100000, .f32⟩
  | .hbm, ⟨11, _⟩ => ⟨S100000, .f32⟩
  | .hbm, ⟨12, _⟩ => ⟨S100000, .f32⟩
  | .hbm, ⟨13, _⟩ => ⟨S100000x1, .f32⟩
  | .hbm, ⟨14, _⟩ => ⟨S100000x32, .f32⟩
  | .hbm, ⟨15, _⟩ => ⟨S100000x32, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S_, .f32⟩
  | .hbm, ⟨26, _⟩ => ⟨S100000x32, .f32⟩
  | .hbm, ⟨27, _⟩ => ⟨S1600000x1, .i32⟩
  | .hbm, ⟨28, _⟩ => ⟨S100000x32, .f32⟩
  | .hbm, ⟨29, _⟩ => ⟨S100000x32, .f32⟩
  | .hbm, ⟨30, _⟩ => ⟨S100000x32, .f32⟩
  | .hbm, ⟨31, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.MessagePassing.lean ====
/-
  One round of degree-normalised message passing on a graph of 100000 nodes with 32 features each, as a function of
  the feature matrix x, the edges' destination rows and their source columns.

  With deg r the number of edges whose destination is row r, every row gets the factor f r = (1 + deg r)^(-1/2).
  The rows are scaled, xs = f · x; each row then gathers the scaled rows of its neighbours, agg r = the sum of
  xs (col e) over the edges e with row e = r; and the result is f · (agg + xs).  The degree is kept as a column
  [100000, 1], the form in which both programs hand it to the row-wise arithmetic.

  The two irregular steps — counting the edges per row and summing the neighbours' rows — are the same host
  operations in both programs, applied to the same operands; they are carried here as they are printed and never
  opened.  Everything else is pointwise in the row and the feature.
-/
import proofs.«140028_j5162550690706_1_alg».proof.KernelIdeal
import Idealize.ShloMosaic.PureOps.Ideal
import Idealize.ShloMosaic.Lib.ValueIdx

noncomputable section

namespace Cert.MsgPass

open Idealize.ShloMosaic Idealize.ShloMosaic.ValueIdx Cert.KernelIdeal

/-- The row of an entry of the feature matrix. -/
def rowOf (i : S100000x32.Idx) : Fin 100000 := ⟨(i 0).val, (i 0).isLt⟩

/-- The factor of row r: (1 + deg r)^(-1/2), the degree read from its column. -/
def rowFactor (d : FVec Ideal S100000x1 .f32) (r : Fin 100000) : EReal :=
  Ideal.rsqrt (Ideal.ofBits .f32 0x3F800000#32 + d (ix2 r (0 : Fin 1)))

/-- Every row of x times its factor. -/
def scaleRows (d : FVec Ideal S100000x1 .f32) (x : FVec Ideal S100000x32 .f32) : FVec Ideal S100000x32 .f32 :=
  fun i => rowFactor d (rowOf i) * x i

/-- Every row of (a + xs) times its factor. -/
def combineRows (d : FVec Ideal S100000x1 .f32) (a xs : FVec Ideal S100000x32 .f32) : FVec Ideal S100000x32 .f32 :=
  fun i => rowFactor d (rowOf i) * (a i + xs i)

section HostSteps
variable [Cert.KernelIdeal.Facts]
open Cert.KernelIdeal.Facts₀

/-- The degree of every row: one added at the destination row of every edge, from zero. -/
def degree (er : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 er)
    (broadcastInDim S1600000 ![] bcast_S_S1600000 (constant (F := Ideal) S_ .f32 0x3F800000#32))

/-- The degree as a column. -/
def degreeCol (er : IVec S1600000 32) : FVec Ideal S100000x1 .f32 :=
  shapeCast S100000x1 (degree er) shapeCasts_S100000_S100000x1

/-- The edges' source columns as the gather takes them: a negative one counted from the end. -/
def sourceIdx (ec : IVec S1600000 32) : IVec S1600000x1 32 :=
  broadcastInDim S1600000x1 ![0] bcast_S1600000_S1600000x1_0
    (select (cmpi .slt ec (broadcastInDim S1600000 ![] bcast_S_S1600000 (constantI S_ 32 0#32)))
      (addi ec (broadcastInDim S1600000 ![] bcast_S_S1600000 (constantI S_ 32 100000#32))) ec)

/-- Every row's sum of its neighbours' rows of xs: the source rows gathered edge by edge, then added at the
    destination rows, from zero. -/
def neighbourSum (xs : FVec Ideal S100000x32 .f32) (er ec : IVec S1600000 32) : FVec Ideal S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 er)
    (Host.gather gather_S100000x32_S1600000x1_S1600000x32_1_0_n_n_0_1_132 xs (sourceIdx ec))

/-- The round: f · (agg + f · x). -/
def round (x : FVec Ideal S100000x32 .f32) (er ec : IVec S1600000 32) : FVec Ideal S100000x32 .f32 :=
  combineRows (degreeCol er) (neighbourSum (scaleRows (degreeCol er) x) er ec) (scaleRows (degreeCol er) x)

end HostSteps

end Cert.MsgPass

end
-- ==== Proof.KernelRun.lean ====
/-
  The idealised kernel's run with its result named.  @main is four segments — the host operations that count the
  degrees, the scaling call, the host operations that gather and add the neighbours' rows, the combining call — and
  the buffer contents at each boundary are a fold from the launch memory.  Every weakly fair execution terminates
  without a fault in a state whose unscoped buffers hold the last boundary's contents; read at the result buffer this
  names the result, and read at the three arguments it says they are as launched.
-/
import proofs.«140028_j5162550690706_1_alg».proof.Proof.Gen.KernelIdeal.Frame

set_option maxRecDepth 16384

noncomputable section

namespace Cert.MsgPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the arguments as launched. -/
theorem run_named : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.MsgPass

end
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.BlockArithmetic.lean ====
/-
  What the two kernel bodies compute on one block of 5000 rows, read at an entry (p, q) of the block.

  The scaling body holds a block of x and the matching 5000 entries of the degree column; it stores
  (1 + deg p)^(-1/2) · x (p, q).  The combining body holds the degree column's entries, a block of agg and a block
  of xs; it stores (1 + deg p)^(-1/2) · (agg (p, q) + xs (p, q)).  In both the column [5000, 1] is spread over the 32
  features, so entry (p, q) sees the column's entry (p, 0).
-/
import proofs.«140028_j5162550690706_1_alg».proof.Proof.Gen.KernelIdeal.Skeleton
import proofs.«140028_j5162550690706_1_alg».proof.Proof.LibKeepdims
import Idealize.ShloMosaic.PureOps.Ideal
import Idealize.ShloMosaic.Lib.ValueIdx
import Idealize.ShloMosaic.Lib.Pipeline.Value

noncomputable section

namespace Cert.MsgPass

open Idealize.ShloMosaic Idealize.ShloMosaic.ValueIdx Cert.KernelIdeal Cert.KernelIdeal.Gen

/-- The scaling body's stored value at (p, q): the factor of the block's row p times x there. -/
theorem scale_block_apply (d : Vec Ideal S5000x1 .f32) (x : Vec Ideal S5000x32 .f32) (p : Fin 5000) (q : Fin 32) :
    k0_pay1 (F := Ideal) d x (ix2 p q)
      = Ideal.rsqrt (Ideal.ofBits .f32 0x3F800000#32 + d (ix2 p (0 : Fin 1))) * x (ix2 p q) := by
  unfold k0_pay1
  rw [shapeCast_self]
  show broadcastTo S5000x32 (rsqrt (addf (broadcast S5000x1 (Scalar.ofBits (F := Ideal) .f32 0x3F800000#32)) d))
      _ (ix2 p q) * x (ix2 p q) = _
  rw [broadcastTo_a1_ab_apply]
  rfl

/-- The combining body's stored value at (p, q): the factor of the block's row p times (agg + xs) there. -/
theorem combine_block_apply (d : Vec Ideal S5000x1 .f32) (a xs : Vec Ideal S5000x32 .f32) (p : Fin 5000) (q : Fin 32) :
    k1_pay1 (F := Ideal) d a xs (ix2 p q)
      = Ideal.rsqrt (Ideal.ofBits .f32 0x3F800000#32 + d (ix2 p (0 : Fin 1))) * (a (ix2 p q) + xs (ix2 p q)) := by
  unfold k1_pay1
  rw [shapeCast_self, shapeCast_self, shapeCast_self]
  show broadcastTo S5000x32 (rsqrt (addf (broadcast S5000x1 (Scalar.ofBits (F := Ideal) .f32 0x3F800000#32)) d))
      _ (ix2 p q) * (a (ix2 p q) + xs (ix2 p q)) = _
  rw [broadcastTo_a1_ab_apply]
  rfl

end Cert.MsgPass

end
-- ==== Proof.ScaleRegion.lean ====
/-
  The scaling call, from whatever the TensorCore's buffers hold when it is entered: its output array ends holding
  every row of x times its factor.

  The grid has 20 points; point t works on rows 5000·t … 5000·t + 4999: the block of x, the matching entries of the
  degree column and the output block all have block index (t, 0).  What point t writes back is therefore block t of
  ONE function of the arrays as found — row r of x times (1 + deg r)^(-1/2) — and the 20 blocks tile the 100000 rows
  (row r lies in the block of point r / 5000), so the array after the call is that function.
-/
import proofs.«140028_j5162550690706_1_alg».proof.Proof.Gen.KernelIdeal.Frame
import proofs.«140028_j5162550690706_1_alg».proof.Proof.MessagePassing
import proofs.«140028_j5162550690706_1_alg».proof.Proof.BlockArithmetic
import Idealize.ShloMosaic.Lib.Pipeline.Value

set_option maxRecDepth 16384

noncomputable section

namespace Cert.MsgPass

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offset_zero : (![0, 0] : Fin 2 → Nat) = fun _ => 0 := funext fun a => by fin_cases a <;> rfl

/-- At point t every window of the scaling call is on block (t, 0). -/
theorem scale_blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 ∧ t.val < 20 :=
  (by decide +kernel : ∀ t : Fin grid0.N, _)

/-- What point t writes back is block t of the scaled rows of the arrays as the call finds them. -/
theorem scale_flushed (c : Dev nD) (t : Fin cfg0.N) :
    (dat0 V c).flushed 2 t
      = ((cfg0.win 2).blk t).view.read (Elt Ideal) (scaleRows (V c main_v4) (V c main_arg0)) := by
  show (cfg0.win 2).cut (grid0.coords t) ((dat0 V c).after 2 t) = _
  rw [after0_2]
  unfold out0_2
  rw [View.canon_unit_zero offset_zero]
  simp only [View.ld_unit_zero (S := S5000x1) offset_zero, View.ld_unit_zero (S := S5000x32) offset_zero]
  obtain ⟨e00, e01, e10, e11, e20, e21, -⟩ := scale_blocks t
  refine funext fun (j : S5000x32.Idx) => ?_
  obtain ⟨p, q, rfl⟩ : ∃ (p : Fin 5000) (q : Fin 32), j = ix2 p q := ⟨j 0, j 1, eq_ix2 j⟩
  show k0_pay1 (F := Ideal) (iblk0 V c 1 t) (iblk0 V c 0 t) (ix2 p q)
    = scaleRows (V c main_v4) (V c main_arg0) (((cfg0.win 2).blk t).view.emb (ix2 p q))
  rw [scale_block_apply]
  unfold scaleRows rowFactor
  show Ideal.rsqrt (Ideal.ofBits .f32 0x3F800000#32 + V c main_v4 (((cfg0.win 1).blk t).view.emb (ix2 p (0 : Fin 1))))
      * V c main_arg0 (((cfg0.win 0).blk t).view.emb (ix2 p q))
    = Ideal.rsqrt (Ideal.ofBits .f32 0x3F800000#32 + V c main_v4 (ix2 (rowOf (((cfg0.win 2).blk t).view.emb (ix2 p q))) (0 : Fin 1)))
      * V c main_arg0 (((cfg0.win 2).blk t).view.emb (ix2 p q))
  have hx : ((cfg0.win 0).blk t).view.emb (ix2 p q) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 32 + 1 * q.val = win0_2.index t (1 : Fin 2) * 32 + 1 * q.val; omega
  have hd : ((cfg0.win 1).blk t).view.emb (ix2 p (0 : Fin 1))
      = ix2 (rowOf (((cfg0.win 2).blk t).view.emb (ix2 p q))) (0 : Fin 1) := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  rw [hx, hd]

/-- An entry of the array is in point t's block iff its row and its feature are in the block's ranges. -/
theorem scale_mem_blk (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v5).slice (win0_2.rect t)).set ↔ _
  rw [View.set_slice_whole, Rect.mem_set_unit]
  exact Iff.rfl

/-- Every entry is in some point's block: row r in the block of point r / 5000. -/
theorem scale_cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : (i 0).val / 5000 < cfg0.N := by show _ < grid0.N; rw [N_0]; omega
  refine ⟨⟨(i 0).val / 5000, hN⟩, flush0_2 _, ?_⟩
  obtain ⟨-, -, -, -, e20, e21, -⟩ := scale_blocks ⟨(i 0).val / 5000, hN⟩
  rw [scale_mem_blk]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hN⟩ (1 : Fin 2) * 32 ≤ (i 1).val
      ∧ (i 1).val < win0_2.index ⟨(i 0).val / 5000, hN⟩ (1 : Fin 2) * 32 + 32
    rw [e21]; omega

/-- The output array after the scaling call: the scaled rows of the arrays as the call finds them. -/
theorem scale_array (c : Dev nD) :
    (dat0 V c).arrAt 2 cfg0.N = scaleRows (V c main_v4) (V c main_arg0) :=
  (dat0 V c).arrAt_eq_of_cover 2 (scaleRows (V c main_v4) (V c main_arg0)) (fun t _ => scale_flushed V c t) scale_cover

end Cert.MsgPass

end
-- ==== Proof.CombineRegion.lean ====
/-
  The combining call, from whatever the TensorCore's buffers hold when it is entered: its output array ends holding
  every row of (agg + xs) times its factor.

  As in the scaling call the grid has 20 points and point t works on rows 5000·t … 5000·t + 4999 of all four
  arrays — the degree column, agg, xs and the output all on block (t, 0).  What point t writes back is block t of
  ONE function of the arrays as found, row r of (agg + xs) times (1 + deg r)^(-1/2), and the 20 blocks tile the rows.
-/
import proofs.«140028_j5162550690706_1_alg».proof.Proof.Gen.KernelIdeal.Frame
import proofs.«140028_j5162550690706_1_alg».proof.Proof.MessagePassing
import proofs.«140028_j5162550690706_1_alg».proof.Proof.BlockArithmetic
import Idealize.ShloMosaic.Lib.Pipeline.Value

set_option maxRecDepth 16384

noncomputable section

namespace Cert.MsgPass

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offset_zero' : (![0, 0] : Fin 2 → Nat) = fun _ => 0 := funext fun a => by fin_cases a <;> rfl

/-- At point t every window of the combining call is on block (t, 0). -/
theorem combine_blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 ∧ t.val < 20 :=
  (by decide +kernel : ∀ t : Fin grid1.N, _)

/-- What point t writes back is block t of the combined rows of the arrays as the call finds them. -/
theorem combine_flushed (c : Dev nD) (t : Fin cfg1.N) :
    (dat1 V c).flushed 3 t
      = ((cfg1.win 3).blk t).view.read (Elt Ideal) (combineRows (V c main_v16) (V c main_v15) (V c main_v5)) := by
  show (cfg1.win 3).cut (grid1.coords t) ((dat1 V c).after 3 t) = _
  rw [after1_3]
  unfold out1_3
  rw [View.canon_unit_zero offset_zero']
  simp only [View.ld_unit_zero (S := S5000x1) offset_zero', View.ld_unit_zero (S := S5000x32) offset_zero']
  obtain ⟨e00, e01, e10, e11, e20, e21, e30, e31, -⟩ := combine_blocks t
  refine funext fun (j : S5000x32.Idx) => ?_
  obtain ⟨p, q, rfl⟩ : ∃ (p : Fin 5000) (q : Fin 32), j = ix2 p q := ⟨j 0, j 1, eq_ix2 j⟩
  show k1_pay1 (F := Ideal) (iblk1 V c 0 t) (iblk1 V c 1 t) (iblk1 V c 2 t) (ix2 p q)
    = combineRows (V c main_v16) (V c main_v15) (V c main_v5) (((cfg1.win 3).blk t).view.emb (ix2 p q))
  rw [combine_block_apply]
  unfold combineRows rowFactor
  have ha : ((cfg1.win 1).blk t).view.emb (ix2 p q) = ((cfg1.win 3).blk t).view.emb (ix2 p q) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 32 + 1 * q.val = win1_3.index t (1 : Fin 2) * 32 + 1 * q.val; omega
  have hs : ((cfg1.win 2).blk t).view.emb (ix2 p q) = ((cfg1.win 3).blk t).view.emb (ix2 p q) := by
    funext a; apply Fin.ext
    match a with
    | ⟨0, _⟩ => show win1_2.index t (0 : Fin 2) * 5000 + 1 * p.val = win1_3.index t (0 : Fin 2) * 5000 + 1 * p.val; omega
    | ⟨1, _⟩ => show win1_2.index t (1 : Fin 2) * 32 + 1 * q.val = win1_3.index t (1 : Fin 2) * 32 + 1 * q.val; omega
  have hd : ((cfg1.win 0).blk t).view.emb (ix2 p (0 : Fin 1))
      = ix2 (rowOf (((cfg1.win 3).blk t).view.emb (ix2 p q))) (0 : Fin 1) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 1 + 1 * 0 = 0; omega
  have ha' : iblk1 V c 1 t (ix2 p q) = V c main_v15 (((cfg1.win 3).blk t).view.emb (ix2 p q)) :=
    congrArg (V c main_v15) ha
  have hs' : iblk1 V c 2 t (ix2 p q) = V c main_v5 (((cfg1.win 3).blk t).view.emb (ix2 p q)) :=
    congrArg (V c main_v5) hs
  have hd' : iblk1 V c 0 t (ix2 p (0 : Fin 1))
      = V c main_v16 (ix2 (rowOf (((cfg1.win 3).blk t).view.emb (ix2 p q))) (0 : Fin 1)) :=
    congrArg (V c main_v16) hd
  rw [ha', hs', hd']

/-- An entry of the array is in point t's block iff its row and its feature are in the block's ranges. -/
theorem combine_mem_blk (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v17).slice (win1_3.rect t)).set ↔ _
  rw [View.set_slice_whole, Rect.mem_set_unit]
  exact Iff.rfl

/-- Every entry is in some point's block: row r in the block of point r / 5000. -/
theorem combine_cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : (i 0).val / 5000 < cfg1.N := by show _ < grid1.N; rw [N_1]; omega
  refine ⟨⟨(i 0).val / 5000, hN⟩, flush1_3 _, ?_⟩
  obtain ⟨-, -, -, -, -, -, e30, e31, -⟩ := combine_blocks ⟨(i 0).val / 5000, hN⟩
  rw [combine_mem_blk]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, hN⟩ (1 : Fin 2) * 32 ≤ (i 1).val
      ∧ (i 1).val < win1_3.index ⟨(i 0).val / 5000, hN⟩ (1 : Fin 2) * 32 + 32
    rw [e31]; omega

/-- The output array after the combining call: the combined rows of the arrays as the call finds them. -/
theorem combine_array (c : Dev nD) :
    (dat1 V c).arrAt 3 cfg1.N = combineRows (V c main_v16) (V c main_v15) (V c main_v5) :=
  (dat1 V c).arrAt_eq_of_cover 3 (combineRows (V c main_v16) (V c main_v15) (V c main_v5))
    (fun t _ => combine_flushed V c t) combine_cover

end Cert.MsgPass

end
-- ==== Proof.KernelValue.lean ====
/-
  The idealised kernel's result as a function of its arguments: the buffer contents at the four boundaries of @main,
  read where the next step reads them.

  Before the scaling call the host has counted the degrees from the destination rows and reshaped them to a column;
  x is as launched.  The scaling call leaves the scaled rows xs in its output array and touches nothing else.  Before
  the combining call the host has gathered and summed the neighbours' rows of xs into agg and reshaped the same
  degrees to a column again.  The combining call's output array, the result, is then the combined rows of those
  three: one round of message passing on the arguments.
-/
import proofs.«140028_j5162550690706_1_alg».proof.Proof.Gen.KernelIdeal.Frame
import proofs.«140028_j5162550690706_1_alg».proof.Proof.MessagePassing
import proofs.«140028_j5162550690706_1_alg».proof.Proof.ScaleRegion
import proofs.«140028_j5162550690706_1_alg».proof.Proof.CombineRegion
import Idealize.ShloMosaic.Lib.StableHlo.Run

set_option maxRecDepth 16384

noncomputable section

namespace Cert.MsgPass

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-! ## Entering the scaling call -/

/-- x is as launched. -/
theorem scale_entry_x (c : Dev nD) : V1 m ρ c main_arg0 = m ((c : Thread nD τ).loc main_arg0) := by
  show StableHlo.after hostOps0 (W0 m ρ c) (Proc.devRef .tc main_arg0) = _
  dsimp only [hostOps0]
  after_results <;> rfl

/-- The degree column is the degrees of the launched destination rows. -/
theorem scale_entry_deg (c : Dev nD) : V1 m ρ c main_v4 = degreeCol (m ((c : Thread nD τ).loc main_arg1)) := by
  show StableHlo.after hostOps0 (W0 m ρ c) (Proc.devRef .tc main_v4) = _
  dsimp only [hostOps0]
  after_results <;> rfl

/-- The degree vector, the destination rows and the source columns, as the host operations leave them. -/
theorem scale_entry_degvec (c : Dev nD) :
    W1 m ρ c (Proc.devRef .tc main_v3) = degree (m ((c : Thread nD τ).loc main_arg1)) := by
  show StableHlo.after hostOps0 (W0 m ρ c) (Proc.devRef .tc main_v3) = _
  dsimp only [hostOps0]
  after_results <;> rfl
theorem scale_entry_rows (c : Dev nD) :
    W1 m ρ c (Proc.devRef .tc main_arg1) = m ((c : Thread nD τ).loc main_arg1) := by
  show StableHlo.after hostOps0 (W0 m ρ c) (Proc.devRef .tc main_arg1) = _
  dsimp only [hostOps0]
  after_results <;> rfl
theorem scale_entry_cols (c : Dev nD) :
    W1 m ρ c (Proc.devRef .tc main_arg2) = m ((c : Thread nD τ).loc main_arg2) := by
  show StableHlo.after hostOps0 (W0 m ρ c) (Proc.devRef .tc main_arg2) = _
  dsimp only [hostOps0]
  after_results <;> rfl

/-! ## Leaving the scaling call -/

/-- Its output array holds the scaled rows of x. -/
theorem scale_exit_xs (c : Dev nD) :
    W2 m ρ c (Proc.devRef .tc main_v5)
      = scaleRows (degreeCol (m ((c : Thread nD τ).loc main_arg1))) (m ((c : Thread nD τ).loc main_arg0)) :=
  (W2_arr m ρ c 2).trans ((scale_array (V1 m ρ) c).trans (by rw [scale_entry_deg, scale_entry_x]))

/-- The degree vector and the two edge arrays are not its arrays: as entered. -/
theorem scale_exit_degvec (c : Dev nD) :
    W2 m ρ c (Proc.devRef .tc main_v3) = degree (m ((c : Thread nD τ).loc main_arg1)) :=
  (W2_of_ne m ρ c main_v3 (by decide)).trans (scale_entry_degvec m ρ c)
theorem scale_exit_rows (c : Dev nD) :
    W2 m ρ c (Proc.devRef .tc main_arg1) = m ((c : Thread nD τ).loc main_arg1) :=
  (W2_of_ne m ρ c main_arg1 (by decide)).trans (scale_entry_rows m ρ c)
theorem scale_exit_cols (c : Dev nD) :
    W2 m ρ c (Proc.devRef .tc main_arg2) = m ((c : Thread nD τ).loc main_arg2) :=
  (W2_of_ne m ρ c main_arg2 (by decide)).trans (scale_entry_cols m ρ c)

/-! ## Entering the combining call -/

/-- The degree column again. -/
theorem combine_entry_deg (c : Dev nD) :
    V3 m ρ c main_v16 = degreeCol (m ((c : Thread nD τ).loc main_arg1)) := by
  show StableHlo.after hostOps1 (W2 m ρ c) (Proc.devRef .tc main_v16) = _
  dsimp only [hostOps1]
  after_results
  rw [scale_exit_degvec]
  rfl

/-- The scaled rows, untouched by the host operations in between. -/
theorem combine_entry_xs (c : Dev nD) :
    V3 m ρ c main_v5
      = scaleRows (degreeCol (m ((c : Thread nD τ).loc main_arg1))) (m ((c : Thread nD τ).loc main_arg0)) := by
  show StableHlo.after hostOps1 (W2 m ρ c) (Proc.devRef .tc main_v5) = _
  dsimp only [hostOps1]
  after_results
  exact scale_exit_xs m ρ c

/-- The neighbours' sums of the scaled rows. -/
theorem combine_entry_agg (c : Dev nD) :
    V3 m ρ c main_v15
      = neighbourSum (scaleRows (degreeCol (m ((c : Thread nD τ).loc main_arg1))) (m ((c : Thread nD τ).loc main_arg0)))
          (m ((c : Thread nD τ).loc main_arg1)) (m ((c : Thread nD τ).loc main_arg2)) := by
  show StableHlo.after hostOps1 (W2 m ρ c) (Proc.devRef .tc main_v15) = _
  dsimp only [hostOps1]
  after_results
  rw [scale_exit_xs, scale_exit_rows, scale_exit_cols]
  rfl

/-! ## The result -/

/-- The result buffer at the last boundary is one round of message passing on the launched arguments. -/
theorem result_value (c : Dev nD) :
    W4 m ρ c (Proc.devRef .tc main_v17)
      = round (m ((c : Thread nD τ).loc main_arg0)) (m ((c : Thread nD τ).loc main_arg1)) (m ((c : Thread nD τ).loc main_arg2)) :=
  (W4_arr m ρ c 3).trans ((combine_array (V3 m ρ) c).trans (by
    rw [combine_entry_deg, combine_entry_agg, combine_entry_xs]; rfl))

end Cert.MsgPass

end
-- ==== Proof.ReferenceValue.lean ====
/-
  The idealised reference computes one round of message passing, read off its stages.

  Its factor is built as a vector — (1 + deg)^(-1/2) per row — made a column and spread over the 32 features; at an
  entry of row r that is (1 + deg r)^(-1/2), the same number the column form of the degrees gives.  Its scaled rows
  are that factor times x, its neighbours' sums are the same gather-and-add of the scaled rows, and its result is the
  factor times (agg + xs).
-/
import proofs.«140028_j5162550690706_1_alg».proof.Proof.Gen.KernelIdeal
import proofs.«140028_j5162550690706_1_alg».proof.Proof.Gen.ReferenceIdeal.Read
import proofs.«140028_j5162550690706_1_alg».proof.Proof.MessagePassing
import proofs.«140028_j5162550690706_1_alg».proof.Proof.LibKeepdims
import Idealize.ShloMosaic.PureOps.Ideal
import Idealize.ShloMosaic.Lib.ValueIdx

noncomputable section

namespace Cert.MsgPass

open Idealize.ShloMosaic Idealize.ShloMosaic.ValueIdx
open Cert.ReferenceIdeal.Read

variable (x : FVec Ideal Cert.KernelIdeal.S100000x32 .f32) (er ec : IVec Cert.KernelIdeal.S1600000 32)

/-- The reference counts the degrees by the same host operation on the same operands. -/
theorem ref_degree : val_main_v3 (F := Ideal) er = degree er := rfl

/-- The reference's wrapped source columns are the same. -/
theorem ref_sourceIdx : val_main_v15 (F := Ideal) ec = sourceIdx ec := rfl

/-- The row an entry's factor is read from, through the two broadcasts. -/
theorem ref_factor_idx (i : Cert.KernelIdeal.S100000x32.Idx) : idx_main_v7 (idx_main_v8 i) = ix1 (rowOf i) := by
  funext a; match a with | ⟨0, _⟩ => rfl

/-- The reference's spread factor at an entry is the factor of the entry's row. -/
theorem ref_factor (i : Cert.KernelIdeal.S100000x32.Idx) :
    val_main_v8 (F := Ideal) er i = rowFactor (degreeCol er) (rowOf i) := by
  rw [val_main_v8_apply, val_main_v7_apply, val_main_v6_apply, val_main_v5_apply, val_main_v4_apply,
    val_main_cst_1_apply, ref_factor_idx, ref_degree]
  unfold rowFactor degreeCol
  rw [shapeCast_a_a1_apply, Ideal.hostUnary_rsqrt_def, Ideal.addf_def, Ideal.ofBits_def]

/-- Its second spread of the same column is the same function. -/
theorem ref_factor' (i : Cert.KernelIdeal.S100000x32.Idx) :
    val_main_v21 (F := Ideal) er i = rowFactor (degreeCol er) (rowOf i) := ref_factor er i

/-- The reference's scaled rows. -/
theorem ref_scaled : val_main_v9 (F := Ideal) x er = scaleRows (degreeCol er) x := by
  funext i
  rw [val_main_v9_apply, ref_factor, Ideal.mulf_def]
  rfl

/-- The reference's neighbours' sums: the same gather-and-add, of the same scaled rows. -/
theorem ref_neighbourSum :
    val_main_v19 (F := Ideal) x er ec = neighbourSum (scaleRows (degreeCol er) x) er ec := by
  unfold val_main_v19 val_main_v16
  rw [ref_scaled, ref_sourceIdx]
  rfl

/-- The reference's result is one round of message passing. -/
theorem reference_value : val_main_v22 (F := Ideal) x er ec = round x er ec := by
  funext i
  rw [val_main_v22_apply, val_main_v20_apply, ref_factor', ref_neighbourSum, ref_scaled, Ideal.mulf_def, Ideal.addf_def]
  rfl

end Cert.MsgPass

end
-- ==== Proof.lean ====
/-
  One round of degree-normalised message passing on a graph (100000 nodes, 32 features, 1600000 edges): the kernel
  and its reference compute the same function of the features x, the edges' destination rows and source columns,
  on the extended reals.

  Both count the degrees deg from the destination rows, give every row the factor f = (1 + deg)^(-1/2), scale the
  rows xs = f · x, sum for every row its neighbours' rows of xs into agg, and return f · (agg + xs).  The kernel does
  the two row-wise steps in two calls over 20 blocks of 5000 rows, the degrees kept as a column; the reference does
  them on whole arrays, the factor made a column and spread over the features.  The counting and the neighbour sums
  are the same host operations on the same operands in both, so no law of arithmetic is needed to join the two
  sides — only that each side, entry by entry, is the function `Cert.MsgPass.round` of the arguments; in
  particular nothing here depends on the inputs being finite.

  The three frames: the kernel's two are the generated frame certificates, the reference's its generated run with
  the result dropped.  The idealisation rewrote nothing, so its preservation claim is trivial.
-/
import proofs.«140028_j5162550690706_1_alg».proof.Defs
import proofs.«140028_j5162550690706_1_alg».proof.Proof.Gen.Kernel
import proofs.«140028_j5162550690706_1_alg».proof.Proof.Gen.Kernel.Skeleton
import proofs.«140028_j5162550690706_1_alg».proof.Proof.Gen.Kernel.Launch
import proofs.«140028_j5162550690706_1_alg».proof.Proof.Gen.Kernel.Points
import proofs.«140028_j5162550690706_1_alg».proof.Proof.Gen.Kernel.Frame
import proofs.«140028_j5162550690706_1_alg».proof.Proof.Gen.KernelIdeal
import proofs.«140028_j5162550690706_1_alg».proof.Proof.Gen.KernelIdeal.Skeleton
import proofs.«140028_j5162550690706_1_alg».proof.Proof.Gen.KernelIdeal.Launch
import proofs.«140028_j5162550690706_1_alg».proof.Proof.Gen.KernelIdeal.Points
import proofs.«140028_j5162550690706_1_alg».proof.Proof.Gen.KernelIdeal.Frame
import proofs.«140028_j5162550690706_1_alg».proof.Proof.Gen.ReferenceIdeal
import proofs.«140028_j5162550690706_1_alg».proof.Proof.Gen.ReferenceIdeal.Run
import proofs.«140028_j5162550690706_1_alg».proof.Proof.Gen.ReferenceIdeal.Read
import proofs.«140028_j5162550690706_1_alg».proof.Proof.Gen.Pre_finite_inputs
import proofs.«140028_j5162550690706_1_alg».proof.Proof.MessagePassing
import proofs.«140028_j5162550690706_1_alg».proof.Proof.KernelRun
import proofs.«140028_j5162550690706_1_alg».proof.Proof.KernelValue
import proofs.«140028_j5162550690706_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the round of message passing on those
    arguments in their result: the kernel by its run read through its two calls, the reference by its stages. -/
theorem algebraic : Cert.algebraic_KernelIdeal_ReferenceIdeal := by
  intro m ρ m' ρ' _ hagree
  refine ⟨fun c => Cert.MsgPass.round
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.MsgPass.result_value m ρ c), (h c).2⟩)
      (Cert.MsgPass.run_named (F := Ideal) m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v22_eq _ _ _).trans
      ((Cert.MsgPass.reference_value _ _ _).trans ?_))
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
